-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x16x2048x2048 : Shape := ⟨4, ![4, 16, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) (main_arg3 : IVec S4x16x2048x2048 1) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x16x2048x2048 : Shape := ⟨4, ![4, 16, 2048, 2048]⟩
abbrev S64x2048x64 : Shape := ⟨3, ![64, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩

abbrev nBuf : Space → Nat
  | .hbm => 9
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .i1⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S64x2048x64, .f32⟩
  | .hbm, ⟨8, _⟩ => ⟨S4x16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x16x2048x64_S64x2048x64 : S4x16x2048x64.ShapeCasts S64x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  shapeCasts_S512x64_S1x512x64 : S512x64.ShapeCasts S1x512x64
  shapeCasts_S64x2048x64_S4x16x2048x64 : S64x2048x64.ShapeCasts S4x16x2048x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .f32 = 32 ∨ (Rect.block (s := S64x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S64x2048x64.size a
  hwx0_3 : ∀ i : grid0.Coords, EltTy.bits .f32 = 32 ∨ (Rect.block (s := S64x2048x64) S1x512x64.size (cc0_transform_3 i) (hinb0_3 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .i1⟩
  | .hbm, ⟨4, _⟩ => ⟨S4x16x2048x2048, .f32⟩
  | .hbm, ⟨5, _⟩ => ⟨S_, .f32⟩
  | .hbm, ⟨6, _⟩ => ⟨S4x16x2048x2048, .f32⟩
  | .hbm, ⟨7, _⟩ => ⟨S4x16x2048x2048, .f32⟩
  | .hbm, ⟨8, _⟩ => ⟨S_, .f32⟩
  | .hbm, ⟨9, _⟩ => ⟨S4x16x2048x2048, .f32⟩
  | .hbm, ⟨10, _⟩ => ⟨S4x16x2048x2048, .f32⟩
  | .hbm, ⟨11, _⟩ => ⟨S4x16x2048x2048, .f32⟩
  | .hbm, ⟨12, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/-
  Scaled tanh attention, as one function of a query row, the head's keys and one value column.

  For a query row `q : Fin 64 → EReal`, the head's keys `K : Fin 2048 → Fin 64 → EReal` and one column of the head's
  values `v : Fin 2048 → EReal`, the result entry is
      Σ_k tanh (α · ((Σ_e q e · K k e) · s)) · v k,
  α the binary value of the literal 0.3 (the same word on both sides, never evaluated) and `s` the scale of the scores.
  The kernel multiplies the scores by the literal 1/8, the reference divides them by the literal 8: on the extended
  reals the quotient by a non-zero real IS the product with its reciprocal (at the infinities too), so both are `row`
  at the scale `1/8`.

  The kernel computes over the heads flattened to one axis, [64, 2048, 64] (`attn3`); the reference over
  [4, 16, 2048, 64] (`attn4`). The two arrangements are the same row-major sequence: head `16·b + h` of the
  flattened arrays is head `(b, h)` (`cast43_apply`, `cast34_apply`), so flattening the three inputs, taking `attn3`
  and unflattening is `attn4` (`unflatten_attn3`). No finiteness is used anywhere: every step is a re-indexing or
  an identity valid on all extended reals.
-/
import Idealize.ShloMosaic.PureOps.Ideal
import Idealize.ShloMosaic.PureOps.Ideal.Laws
import Idealize.ShloMosaic.Lib.ValueIdx
import Idealize.ShloMosaic.Lib.Pipeline.Value

noncomputable section

namespace Cert.Attn

open Idealize.ShloMosaic Idealize.ShloMosaic.ValueIdx

/-- The heads flattened to one axis. -/
abbrev H3 : Shape := ⟨3, ![64, 2048, 64]⟩
/-- Batch and head as two axes. -/
abbrev H4 : Shape := ⟨4, ![4, 16, 2048, 64]⟩

/-- The literal 0.3 as both programs print it. -/
abbrev alpha : EReal := Ideal.ofBits .f32 0x3E99999A#32

/-- One entry of the result: the tanh-weighted sum of a value column, the weights from the scores of one query row
    against every key, scaled by `s`. -/
def row (s : EReal) (q : Fin 64 → EReal) (K : Fin 2048 → Fin 64 → EReal) (v : Fin 2048 → EReal) : EReal :=
  ∑ k : Fin 2048, Ideal.tanh (alpha * ((∑ e : Fin 64, q e * K k e) * s)) * v k

/-- The result over flattened heads, by coordinates: head `h`, query `q`, feature `d`. -/
def attn3c (s : EReal) (Q K V : H3.Idx → EReal) (h : Fin 64) (q : Fin 2048) (d : Fin 64) : EReal :=
  row s (fun e => Q (ix3 h q e)) (fun k e => K (ix3 h k e)) (fun k => V (ix3 h k d))

/-- The same as an array. -/
def attn3 (s : EReal) (Q K V : H3.Idx → EReal) : H3.Idx → EReal :=
  fun i => attn3c s Q K V ⟨(i 0).val, (i 0).isLt⟩ ⟨(i 1).val, (i 1).isLt⟩ ⟨(i 2).val, (i 2).isLt⟩

theorem attn3_ix3 (s : EReal) (Q K V : H3.Idx → EReal) (h : Fin 64) (q : Fin 2048) (d : Fin 64) :
    attn3 s Q K V (ix3 h q d) = attn3c s Q K V h q d := rfl

/-- The result over batch and head, by coordinates. -/
def attn4c (s : EReal) (Q K V : H4.Idx → EReal) (b : Fin 4) (h : Fin 16) (q : Fin 2048) (d : Fin 64) : EReal :=
  row s (fun e => Q (ix4 b h q e)) (fun k e => K (ix4 b h k e)) (fun k => V (ix4 b h k d))

/-- The same as an array. -/
def attn4 (s : EReal) (Q K V : H4.Idx → EReal) : H4.Idx → EReal :=
  fun i => attn4c s Q K V ⟨(i 0).val, (i 0).isLt⟩ ⟨(i 1).val, (i 1).isLt⟩ ⟨(i 2).val, (i 2).isLt⟩ ⟨(i 3).val, (i 3).isLt⟩

theorem attn4_ix4 (s : EReal) (Q K V : H4.Idx → EReal) (b : Fin 4) (h : Fin 16) (q : Fin 2048) (d : Fin 64) :
    attn4 s Q K V (ix4 b h q d) = attn4c s Q K V b h q d := rfl

/-- Head `(b, h)` is flattened head `16·b + h`. -/
def flat (b : Fin 4) (h : Fin 16) : Fin 64 := ⟨16 * b.val + h.val, by have := b.isLt; have := h.isLt; omega⟩

section Casts
variable {α : Type}

/-- A [4, 16, 2048, 64] array flattened to [64, 2048, 64] reads, at flattened head `16·b + h`, the operand at head
    `(b, h)`: the two indices have the same row-major position. -/
theorem cast43_apply (X : H4.Idx → α) (hc : H4.ShapeCasts H3) (b : Fin 4) (h : Fin 16) (q : Fin 2048) (e : Fin 64) :
    shapeCast H3 X hc (ix3 (flat b h) q e) = X (ix4 b h q e) :=
  shapeCast_apply X hc _ _ (by
    rw [Shape.rowMajor_val_four, Shape.rowMajor_val_three]
    show ((b.val * 16 + h.val) * 2048 + q.val) * 64 + e.val = ((16 * b.val + h.val) * 2048 + q.val) * 64 + e.val
    rw [Nat.mul_comm b.val 16])

/-- A [64, 2048, 64] array unflattened to [4, 16, 2048, 64] reads, at head `(b, h)`, the operand at flattened head
    `16·b + h`. -/
theorem cast34_apply (Y : H3.Idx → α) (hc : H3.ShapeCasts H4) (b : Fin 4) (h : Fin 16) (q : Fin 2048) (d : Fin 64) :
    shapeCast H4 Y hc (ix4 b h q d) = Y (ix3 (flat b h) q d) :=
  shapeCast_apply Y hc _ _ (by
    rw [Shape.rowMajor_val_four, Shape.rowMajor_val_three]
    show ((16 * b.val + h.val) * 2048 + q.val) * 64 + d.val = ((b.val * 16 + h.val) * 2048 + q.val) * 64 + d.val
    rw [Nat.mul_comm b.val 16])

end Casts

/-- Flatten the three inputs, take the flattened result, unflatten: the result over batch and head. -/
theorem unflatten_attn3 (s : EReal) (Q K V : H4.Idx → EReal) (h43 : H4.ShapeCasts H3) (h34 : H3.ShapeCasts H4) :
    shapeCast H4 (attn3 s (shapeCast H3 Q h43) (shapeCast H3 K h43) (shapeCast H3 V h43)) h34 = attn4 s Q K V := by
  funext i
  obtain ⟨b, h, q, d, rfl⟩ : ∃ (b : Fin 4) (h : Fin 16) (q : Fin 2048) (d : Fin 64), i = ix4 b h q d :=
    ⟨i 0, i 1, i 2, i 3, eq_ix4 i⟩
  rw [cast34_apply, attn3_ix3, attn4_ix4]
  unfold attn3c attn4c
  simp only [cast43_apply]

/-! ## The two scales are one -/

/-- The literal 8 is the real 8. -/
theorem ofBits_eight : Ideal.ofBits .f32 0x41000000#32 = ((8 : ℝ) : EReal) := by
  simp [Ideal.ofBits, Ideal.ieee, -EReal.coe_mul]; norm_num

/-- The literal 0.125 is the real 1/8. -/
theorem ofBits_eighth : Ideal.ofBits .f32 0x3E000000#32 = ((1 / 8 : ℝ) : EReal) := by
  simp [Ideal.ofBits, Ideal.ieee, -EReal.coe_mul]; norm_num

/-- Dividing by the literal 8 is multiplying by the literal 0.125, on every extended real. -/
theorem div_eight (x : EReal) :
    Ideal.div x (Ideal.ofBits .f32 0x41000000#32) = x * Ideal.ofBits .f32 0x3E000000#32 := by
  rw [ofBits_eight, ofBits_eighth]
  exact Ideal.div_coe (by norm_num : (8 : ℝ) ≠ 0) x

end Cert.Attn

end
-- ==== Proof.RefValue.lean ====
/-
  The reference's result is `attn4` at the scale 1/8.

  The reference's last stage is a batched product over the key axis: at (b, h, q, d) it sums over k the weight at
  (b, h, q, k) times the value at (b, h, k, d). The weight is tanh (α · (score / 8)), the score the batched product
  over the feature axis: at (b, h, q, k) the sum over e of Q (b, h, q, e) · K (b, h, k, e). Reading each stage at an
  index gives `row` with the quotient by 8 in place of the product with 1/8; `div_eight` joins the two.
-/
import proofs.«108790_j22342419874385_1_alg».proof.Proof.Gen.ReferenceIdeal.Read
import proofs.«108790_j22342419874385_1_alg».proof.Proof.Spec

noncomputable section

namespace Cert.Attn.Ref

open Idealize.ShloMosaic Idealize.ShloMosaic.ValueIdx Cert.ReferenceIdeal Cert.ReferenceIdeal.Read Cert.Attn

/-- The four index maps of the two batched products, by coordinates. -/
theorem lidx0 (b : Fin 4) (h : Fin 16) (q k : Fin 2048) (e : Fin 64) :
    lidx_main_v0 (ix4 b h q k) e = ix4 b h q e :=
  funext fun a => Fin.ext (by match a with | ⟨0, _⟩ => rfl | ⟨1, _⟩ => rfl | ⟨2, _⟩ => rfl | ⟨3, _⟩ => rfl)
theorem ridx0 (b : Fin 4) (h : Fin 16) (q k : Fin 2048) (e : Fin 64) :
    ridx_main_v0 (ix4 b h q k) e = ix4 b h k e :=
  funext fun a => Fin.ext (by match a with | ⟨0, _⟩ => rfl | ⟨1, _⟩ => rfl | ⟨2, _⟩ => rfl | ⟨3, _⟩ => rfl)
theorem lidx6 (b : Fin 4) (h : Fin 16) (q : Fin 2048) (d : Fin 64) (k : Fin 2048) :
    lidx_main_v6 (ix4 b h q d) k = ix4 b h q k :=
  funext fun a => Fin.ext (by match a with | ⟨0, _⟩ => rfl | ⟨1, _⟩ => rfl | ⟨2, _⟩ => rfl | ⟨3, _⟩ => rfl)
theorem ridx6 (b : Fin 4) (h : Fin 16) (q : Fin 2048) (d : Fin 64) (k : Fin 2048) :
    ridx_main_v6 (ix4 b h q d) k = ix4 b h k d :=
  funext fun a => Fin.ext (by match a with | ⟨0, _⟩ => rfl | ⟨1, _⟩ => rfl | ⟨2, _⟩ => rfl | ⟨3, _⟩ => rfl)

/-- The reference's weight at (b, h, q, k): tanh of α times the score over 8. -/
theorem weight_apply (Q K : H4.Idx → EReal) (b : Fin 4) (h : Fin 16) (q k : Fin 2048) :
    val_main_v5 (F := Ideal) Q K (ix4 b h q k)
      = Ideal.tanh (alpha * ((∑ e : Fin 64, Q (ix4 b h q e) * K (ix4 b h k e)) * Ideal.ofBits .f32 0x3E000000#32)) := by
  rw [val_main_v5_apply, val_main_v4_apply, val_main_v3_apply, val_main_cst_0_apply, val_main_v2_apply, val_main_v0_apply,
    val_main_v1_apply, val_main_cst_apply]
  simp only [Ideal.hostUnary_tanh_def, Ideal.mulf_def, Ideal.hostDivf_def, Ideal.ofBits_def, lidx0, ridx0, div_eight]

/-- The reference's result, index by index. -/
theorem result_eq (Q K V : H4.Idx → EReal) :
    val_main_v6 (F := Ideal) Q K V = attn4 (Ideal.ofBits .f32 0x3E000000#32) Q K V := by
  funext i
  obtain ⟨b, h, q, d, rfl⟩ : ∃ (b : Fin 4) (h : Fin 16) (q : Fin 2048) (d : Fin 64), i = ix4 b h q d :=
    ⟨i 0, i 1, i 2, i 3, eq_ix4 i⟩
  rw [val_main_v6_apply, attn4_ix4]
  unfold attn4c row
  simp only [lidx6, ridx6, weight_apply]

end Cert.Attn.Ref

end
-- ==== Proof.Payload.lean ====
/-
  What the kernel body stores, at an index, is `row` at the scale 1/8 of the three loaded blocks.

  The body drops the blocks' leading unit axis, multiplies the [512, 64] query block by the transposed [2048, 64]
  key block into a zero accumulator (the scores: at (r, k) the sum over e of q (r, e) · key (k, e)), scales the scores
  by the literal 1/8 and by α, takes tanh, and multiplies the [512, 2048] weights by the [2048, 64] value block into a
  zero accumulator (at (r, d) the sum over k of weight (r, k) · value (k, d)); the roundings to bf16 on the way into
  each product are the identity on the extended reals. Each product is read at an index as the plain sum over its one
  contracted axis.
-/
import proofs.«108790_j22342419874385_1_alg».proof.Proof.Gen.KernelIdeal.Skeleton
import proofs.«108790_j22342419874385_1_alg».proof.Proof.Spec
import Idealize.ShloMosaic.Lib.ValueLayout

noncomputable section

namespace Cert.Attn.Body

open Idealize.ShloMosaic Idealize.ShloMosaic.ValueIdx Cert.KernelIdeal Cert.KernelIdeal.Gen Cert.Attn

/-! ## The two products' operand indices, by coordinates -/

abbrev dQK := dot_S512x64_S64x2048_S512x2048_1_0_0_1_n_n
abbrev dWV := dot_S512x2048_S2048x64_S512x64_1_0_0_1_n_n

theorem qk_lhs0 (i : S512x2048.Idx) (q : dQK.contr.Idx) : (dQK.lhsIdx i q 0).val = (i 0).val := by
  unfold DotDims.lhsIdx
  rw [dif_neg (show ¬(0 : Fin S512x64.rank) ∈ dQK.lhsBatch by decide),
    dif_pos (show (0 : Fin S512x64.rank) ∈ dQK.lhsNonContracting by decide)]
  rfl
theorem qk_lhs1 (i : S512x2048.Idx) (q : dQK.contr.Idx) : (dQK.lhsIdx i q 1).val = (q ⟨0, by decide⟩).val :=
  dQK.lhsIdx_val_of_single rfl i q
theorem qk_rhs0 (i : S512x2048.Idx) (q : dQK.contr.Idx) : (dQK.rhsIdx i q 0).val = (q ⟨0, by decide⟩).val :=
  dQK.rhsIdx_val_of_single rfl i q
theorem qk_rhs1 (i : S512x2048.Idx) (q : dQK.contr.Idx) : (dQK.rhsIdx i q 1).val = (i 1).val := by
  unfold DotDims.rhsIdx
  rw [dif_neg (show ¬(1 : Fin S64x2048.rank) ∈ dQK.rhsBatch by decide),
    dif_pos (show (1 : Fin S64x2048.rank) ∈ dQK.rhsNonContracting by decide)]
  rfl

theorem wv_lhs0 (i : S512x64.Idx) (q : dWV.contr.Idx) : (dWV.lhsIdx i q 0).val = (i 0).val := by
  unfold DotDims.lhsIdx
  rw [dif_neg (show ¬(0 : Fin S512x2048.rank) ∈ dWV.lhsBatch by decide),
    dif_pos (show (0 : Fin S512x2048.rank) ∈ dWV.lhsNonContracting by decide)]
  rfl
theorem wv_lhs1 (i : S512x64.Idx) (q : dWV.contr.Idx) : (dWV.lhsIdx i q 1).val = (q ⟨0, by decide⟩).val :=
  dWV.lhsIdx_val_of_single rfl i q
theorem wv_rhs0 (i : S512x64.Idx) (q : dWV.contr.Idx) : (dWV.rhsIdx i q 0).val = (q ⟨0, by decide⟩).val :=
  dWV.rhsIdx_val_of_single rfl i q
theorem wv_rhs1 (i : S512x64.Idx) (q : dWV.contr.Idx) : (dWV.rhsIdx i q 1).val = (i 1).val := by
  unfold DotDims.rhsIdx
  rw [dif_neg (show ¬(1 : Fin S2048x64.rank) ∈ dWV.rhsBatch by decide),
    dif_pos (show (1 : Fin S2048x64.rank) ∈ dWV.rhsNonContracting by decide)]
  rfl

/-! ## The scores, the weights, the stored value -/

/-- The scores block: the query block times the transposed key block. -/
def scores (x0 : Vec Ideal S1x512x64 .f32) (x1 : Vec Ideal S1x2048x64 .f32) : FVec Ideal S512x2048 .f32 :=
  matmul dQK none (truncf .bf16 (shapeCast S512x64 x0 shapeCasts_S1x512x64_S512x64) bitsLt_bf16_f32)
    (transpose S64x2048 [1, 0] (truncf .bf16 (shapeCast S2048x64 x1 shapeCasts_S1x2048x64_S2048x64) bitsLt_bf16_f32)
      transposes_S2048x64_p1_0_S64x2048)
    (constant S512x2048 .f32 0x00000000#32)

/-- The weights block: tanh of α times the scaled scores. -/
def weights (x0 : Vec Ideal S1x512x64 .f32) (x1 : Vec Ideal S1x2048x64 .f32) : FVec Ideal S512x2048 .f32 :=
  tanh (mulf (broadcast S512x2048 (Scalar.ofBits .f32 0x3E99999A#32))
    (mulf (scores x0 x1) (broadcast S512x2048 (Scalar.ofBits .f32 0x3E000000#32))))

/-- The stored value is the weights times the value block, with the unit axis put back. -/
theorem pay_eq (x0 : Vec Ideal S1x512x64 .f32) (x1 x2 : Vec Ideal S1x2048x64 .f32) :
    k0_pay1 (F := Ideal) x0 x1 x2
      = shapeCast S1x512x64 (matmul dWV none (truncf .bf16 (weights x0 x1) bitsLt_bf16_f32)
          (truncf .bf16 (shapeCast S2048x64 x2 shapeCasts_S1x2048x64_S2048x64) bitsLt_bf16_f32)
          (constant S512x64 .f32 0x00000000#32)) shapeCasts_S512x64_S1x512x64 := rfl

/-- A score: query row `r` against key `k`, summed over the features. -/
theorem scores_apply (x0 : Vec Ideal S1x512x64 .f32) (x1 : Vec Ideal S1x2048x64 .f32) (r : Fin 512) (k : Fin 2048) :
    scores x0 x1 (ix2 r k) = ∑ e : Fin 64, x0 (ix3 (0 : Fin 1) r e) * x1 (ix3 (0 : Fin 1) k e) := by
  unfold scores
  refine (Ideal.matmul_constant_zero_apply dQK none _ _ (ix2 r k)).trans ?_
  rw [← Equiv.sum_comp (contrEquiv1 dQK 64 rfl rfl).symm]
  refine Finset.sum_congr rfl fun e _ => ?_
  have he := contrEquiv1_symm_val dQK 64 rfl rfl e
  have el : dQK.lhsIdx (ix2 r k) ((contrEquiv1 dQK 64 rfl rfl).symm e) = ix2 r e := funext fun a => Fin.ext (by
    match a with
    | ⟨0, _⟩ => exact qk_lhs0 _ _
    | ⟨1, _⟩ => exact (qk_lhs1 _ _).trans he)
  have er : dQK.rhsIdx (ix2 r k) ((contrEquiv1 dQK 64 rfl rfl).symm e) = ix2 e k := funext fun a => Fin.ext (by
    match a with
    | ⟨0, _⟩ => exact (qk_rhs0 _ _).trans he
    | ⟨1, _⟩ => exact qk_rhs1 _ _)
  rw [el, er, truncf_apply, transpose_ix2_apply, truncf_apply, shapeCast_1ab_ab_apply, shapeCast_1ab_ab_apply]

/-- A weight: tanh of α times the score times 1/8. -/
theorem weights_apply (x0 : Vec Ideal S1x512x64 .f32) (x1 : Vec Ideal S1x2048x64 .f32) (r : Fin 512) (k : Fin 2048) :
    weights x0 x1 (ix2 r k)
      = Ideal.tanh (alpha * ((∑ e : Fin 64, x0 (ix3 (0 : Fin 1) r e) * x1 (ix3 (0 : Fin 1) k e)) * Ideal.ofBits .f32 0x3E000000#32)) := by
  rw [← scores_apply]
  rfl

/-- THE STORED VALUE at row `r`, feature `d`: `row` of the query block's row, the key block and the value block's column. -/
theorem pay_apply (x0 : Vec Ideal S1x512x64 .f32) (x1 x2 : Vec Ideal S1x2048x64 .f32) (u : Fin 1) (r : Fin 512) (d : Fin 64) :
    k0_pay1 (F := Ideal) x0 x1 x2 (ix3 u r d)
      = row (Ideal.ofBits .f32 0x3E000000#32) (fun e => x0 (ix3 (0 : Fin 1) r e)) (fun k e => x1 (ix3 (0 : Fin 1) k e))
          (fun k => x2 (ix3 (0 : Fin 1) k d)) := by
  rw [pay_eq]
  refine (shapeCast_ab_1ab_apply _ shapeCasts_S512x64_S1x512x64 u r d).trans ?_
  refine (Ideal.matmul_constant_zero_apply dWV none _ _ (ix2 r d)).trans ?_
  rw [← Equiv.sum_comp (contrEquiv1 dWV 2048 rfl rfl).symm]
  unfold row
  refine Finset.sum_congr rfl fun k _ => ?_
  have hk := contrEquiv1_symm_val dWV 2048 rfl rfl k
  have el : dWV.lhsIdx (ix2 r d) ((contrEquiv1 dWV 2048 rfl rfl).symm k) = ix2 r k := funext fun a => Fin.ext (by
    match a with
    | ⟨0, _⟩ => exact wv_lhs0 _ _
    | ⟨1, _⟩ => exact (wv_lhs1 _ _).trans hk)
  have er : dWV.rhsIdx (ix2 r d) ((contrEquiv1 dWV 2048 rfl rfl).symm k) = ix2 k d := funext fun a => Fin.ext (by
    match a with
    | ⟨0, _⟩ => exact (wv_rhs0 _ _).trans hk
    | ⟨1, _⟩ => exact wv_rhs1 _ _)
  rw [el, er, truncf_apply, truncf_apply, weights_apply, shapeCast_1ab_ab_apply]

end Cert.Attn.Body

end
-- ==== Proof.KernelBlocks.lean ====
/-
  The kernel's result array is `attn4` at the scale 1/8 of the three float arguments.

  The program flattens batch and head of each input into one axis, runs the kernel over a grid of (flattened head,
  block of 512 query rows), and unflattens the output. At a grid point the query window holds rows
  `512·qi … 512·qi + 511` of head `bh`, the key and value windows hold ALL of head `bh`, and the output window is rows
  `512·qi … 512·qi + 511` of head `bh` of the output. So what a point writes back is its block of ONE function of
  the flattened inputs, `attn3` (`block_eq`, `flushed_eq`); the 64 × 4 output blocks tile the output array (`cover`), so
  the array ends holding `attn3` (`final`); the flattening before (`entry_v0` …) and the unflattening after (`tail_v4`)
  are the two casts of `unflatten_attn3`.
-/
import proofs.«108790_j22342419874385_1_alg».proof.Proof.Gen.KernelIdeal.Frame
import proofs.«108790_j22342419874385_1_alg».proof.Proof.Payload
import Idealize.ShloMosaic.Lib.Pipeline.Value
import Idealize.ShloMosaic.Lib.StableHlo.Run
import Idealize.ShloMosaic.Lib.Tactic

noncomputable section

namespace Cert.Attn.Kernel

open Idealize.ShloMosaic Idealize.ShloMosaic.TcCoe Idealize.SL.Sem Idealize.ShloMosaic.ValueIdx
open Idealize.ShloMosaic.Pipeline (Dat)
open Cert.KernelIdeal Cert.KernelIdeal.Gen Cert.Attn

variable (m : (ℓ : Loc nD τ sig) → Buf (Elt Ideal) ℓ) (ρ : Dev nD → PrngReg)

/-- The scale of the scores: the literal 1/8. -/
abbrev eighth : EReal := Ideal.ofBits .f32 0x3E000000#32

theorem hz : (![0, 0, 0] : Fin 3 → Nat) = fun _ => 0 := funext fun a => by fin_cases a <;> rfl

/-! ## The index maps over the grid -/

/-- The query window moves with the output window; the key and value windows follow its head and stay at row block 0;
    no window moves along the features; the output's head index is below 64 and its row-block index below 4. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) < 64 ∧ win0_3.index t (1 : Fin 3) < 4 ∧ win0_3.index t (2 : Fin 3) = 0 :=
  (by decide +kernel : ∀ t : Fin grid0.N, _)

/-- Every (head, row block) is some point's output block. -/
theorem idx_onto : ∀ (q0 : Fin 64) (q1 : Fin 4), ∃ t : Fin cfg0.N, win0_3.index t = ![q0.val, q1.val, 0] :=
  (by decide +kernel : ∀ (q0 : Fin 64) (q1 : Fin 4), ∃ t : Fin grid0.N, win0_3.index t = ![q0.val, q1.val, 0])

/-! ## An input block is its array read where the window's rectangle says -/

theorem iblk0_apply (c : Dev nD) (t : Fin cfg0.N) (y : S1x512x64.Idx) (i : S64x2048x64.Idx)
    (h0 : win0_0.index t (0 : Fin 3) * 1 + 1 * (y 0).val = (i 0).val)
    (h1 : win0_0.index t (1 : Fin 3) * 512 + 1 * (y 1).val = (i 1).val)
    (h2 : win0_0.index t (2 : Fin 3) * 64 + 1 * (y 2).val = (i 2).val) :
    (iblk m c 0 t : Vec Ideal S1x512x64 .f32) y = (V m c main_v0 : S64x2048x64.Idx → EReal) i := by
  unfold iblk
  rw [View.read_apply]
  show (V m c main_v0 : S64x2048x64.Idx → EReal) _ = (V m c main_v0 : S64x2048x64.Idx → EReal) i
  refine congrArg (V m c main_v0 : S64x2048x64.Idx → EReal) (funext fun a => Fin.ext ?_)
  match a with
  | ⟨0, _⟩ => exact h0
  | ⟨1, _⟩ => exact h1
  | ⟨2, _⟩ => exact h2

theorem iblk1_apply (c : Dev nD) (t : Fin cfg0.N) (y : S1x2048x64.Idx) (i : S64x2048x64.Idx)
    (h0 : win0_1.index t (0 : Fin 3) * 1 + 1 * (y 0).val = (i 0).val)
    (h1 : win0_1.index t (1 : Fin 3) * 2048 + 1 * (y 1).val = (i 1).val)
    (h2 : win0_1.index t (2 : Fin 3) * 64 + 1 * (y 2).val = (i 2).val) :
    (iblk m c 1 t : Vec Ideal S1x2048x64 .f32) y = (V m c main_v1 : S64x2048x64.Idx → EReal) i := by
  unfold iblk
  rw [View.read_apply]
  show (V m c main_v1 : S64x2048x64.Idx → EReal) _ = (V m c main_v1 : S64x2048x64.Idx → EReal) i
  refine congrArg (V m c main_v1 : S64x2048x64.Idx → EReal) (funext fun a => Fin.ext ?_)
  match a with
  | ⟨0, _⟩ => exact h0
  | ⟨1, _⟩ => exact h1
  | ⟨2, _⟩ => exact h2

theorem iblk2_apply (c : Dev nD) (t : Fin cfg0.N) (y : S1x2048x64.Idx) (i : S64x2048x64.Idx)
    (h0 : win0_2.index t (0 : Fin 3) * 1 + 1 * (y 0).val = (i 0).val)
    (h1 : win0_2.index t (1 : Fin 3) * 2048 + 1 * (y 1).val = (i 1).val)
    (h2 : win0_2.index t (2 : Fin 3) * 64 + 1 * (y 2).val = (i 2).val) :
    (iblk m c 2 t : Vec Ideal S1x2048x64 .f32) y = (V m c main_v2 : S64x2048x64.Idx → EReal) i := by
  unfold iblk
  rw [View.read_apply]
  show (V m c main_v2 : S64x2048x64.Idx → EReal) _ = (V m c main_v2 : S64x2048x64.Idx → EReal) i
  refine congrArg (V m c main_v2 : S64x2048x64.Idx → EReal) (funext fun a => Fin.ext ?_)
  match a with
  | ⟨0, _⟩ => exact h0
  | ⟨1, _⟩ => exact h1
  | ⟨2, _⟩ => exact h2

/-! ## What a point writes back -/

/-- At a point, the stored value at block coordinate `j` is `attn3` of the flattened inputs at the array index `i` the
    output's rectangle gives `j`: head = the point's head, row = 512 · the point's row block + `j`'s row. -/
theorem block_eq (c : Dev nD) (t : Fin cfg0.N) (j : S1x512x64.Idx) (i : S64x2048x64.Idx)
    (h0 : (i 0).val = win0_3.index t (0 : Fin 3) * 1 + 1 * (j 0).val)
    (h1 : (i 1).val = win0_3.index t (1 : Fin 3) * 512 + 1 * (j 1).val)
    (h2 : (i 2).val = win0_3.index t (2 : Fin 3) * 64 + 1 * (j 2).val) :
    k0_pay1 (F := Ideal) (iblk m c 0 t) (iblk m c 1 t) (iblk m c 2 t) j
      = attn3 eighth (V m c main_v0) (V m c main_v1) (V m c main_v2) i := by
  obtain ⟨e00, e01, e02, e10, e11, e12, e20, e21, e22, b0, b1, b2⟩ := idx_facts t
  obtain ⟨u, r, d, rfl⟩ : ∃ (u : Fin 1) (r : Fin 512) (d : Fin 64), j = ix3 u r d := ⟨j 0, j 1, j 2, eq_ix3 j⟩
  obtain ⟨H, R, D, rfl⟩ : ∃ (H : Fin 64) (R : Fin 2048) (D : Fin 64), i = ix3 H R D := ⟨i 0, i 1, i 2, eq_ix3 i⟩
  have hu : u.val = 0 := by omega
  have h0' : H.val = win0_3.index t (0 : Fin 3) * 1 + 1 * u.val := h0
  have h1' : R.val = win0_3.index t (1 : Fin 3) * 512 + 1 * r.val := h1
  have h2' : D.val = win0_3.index t (2 : Fin 3) * 64 + 1 * d.val := h2
  obtain rfl : D = d := Fin.ext (by omega)
  rw [attn3_ix3]
  refine (Body.pay_apply (iblk m c 0 t) (iblk m c 1 t) (iblk m c 2 t) u r D).trans ?_
  unfold attn3c
  have hq : (fun e : Fin 64 => (iblk m c 0 t : Vec Ideal S1x512x64 .f32) (ix3 (0 : Fin 1) r e))
      = fun e : Fin 64 => (V m c main_v0 : S64x2048x64.Idx → EReal) (ix3 H R e) := funext fun e =>
    iblk0_apply m c t _ _
      (show win0_0.index t (0 : Fin 3) * 1 + 1 * 0 = H.val by omega)
      (show win0_0.index t (1 : Fin 3) * 512 + 1 * r.val = R.val by omega)
      (show win0_0.index t (2 : Fin 3) * 64 + 1 * e.val = e.val by omega)
  have hk : (fun (k : Fin 2048) (e : Fin 64) => (iblk m c 1 t : Vec Ideal S1x2048x64 .f32) (ix3 (0 : Fin 1) k e))
      = fun (k : Fin 2048) (e : Fin 64) => (V m c main_v1 : S64x2048x64.Idx → EReal) (ix3 H k e) := funext fun k => funext fun e =>
    iblk1_apply m c t _ _
      (show win0_1.index t (0 : Fin 3) * 1 + 1 * 0 = H.val by omega)
      (show win0_1.index t (1 : Fin 3) * 2048 + 1 * k.val = k.val by omega)
      (show win0_1.index t (2 : Fin 3) * 64 + 1 * e.val = e.val by omega)
  have hv : (fun k : Fin 2048 => (iblk m c 2 t : Vec Ideal S1x2048x64 .f32) (ix3 (0 : Fin 1) k D))
      = fun k : Fin 2048 => (V m c main_v2 : S64x2048x64.Idx → EReal) (ix3 H k D) := funext fun k =>
    iblk2_apply m c t _ _
      (show win0_2.index t (0 : Fin 3) * 1 + 1 * 0 = H.val by omega)
      (show win0_2.index t (1 : Fin 3) * 2048 + 1 * k.val = k.val by omega)
      (show win0_2.index t (2 : Fin 3) * 64 + 1 * D.val = D.val by omega)
  exact congr (congr (congrArg (row eighth) hq) hk) hv

/-- WHAT POINT `t` WRITES BACK is block `t` of `attn3` of the flattened inputs as the region finds them. -/
theorem flushed_eq (c : Dev nD) (t : Fin cfg0.N) :
    (dats m 0 c).flushed 3 t
      = ((cfg0.win 3).blk t).view.read (Elt Ideal) (attn3 eighth (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S1x512x64) hz, View.ld_unit_zero (S := S1x2048x64) hz]
  funext j
  exact block_eq m c t j _ rfl rfl rfl

/-! ## The output's blocks tile the output array -/

theorem mem_blk (t : Fin cfg0.N) (i : S64x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v3).slice (win0_3.rect t)).set ↔ _
  rw [View.set_slice_whole, Rect.mem_set_unit]
  exact Iff.rfl

/-- Row `R` of head `H` is in the block of the point at head `H`, row block `R / 512`. -/
theorem cover (i : S64x2048x64.Idx) :
    ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- THE OUTPUT ARRAY after the region: `attn3` of the flattened inputs. -/
theorem final (c : Dev nD) :
    (dats m 0 c).arrAt 3 cfg0.N = attn3 eighth (V m c main_v0) (V m c main_v1) (V m c main_v2) :=
  (dats m 0 c).arrAt_eq_of_cover 3 (attn3 eighth (V m c main_v0) (V m c main_v1) (V m c main_v2))
    (fun t _ => flushed_eq m c t) cover

end Cert.Attn.Kernel

end
-- ==== Proof.KernelRun.lean ====
/-
  The kernel program's run, read: its result array ends at `attn4` at the scale 1/8 of the three float arguments.

  Before the region the program flattens batch and head of each input (`entry_v0`, `entry_v1`, `entry_v2`); after it,
  it unflattens the region's output array (`tail_v4`), which the region left at `attn3` of the flattened inputs
  (`Kernel.final`). Flatten, `attn3`, unflatten is `attn4` (`unflatten_attn3`).
-/
import proofs.«108790_j22342419874385_1_alg».proof.Proof.KernelBlocks

noncomputable section

namespace Cert.Attn.Kernel

open Idealize.ShloMosaic Idealize.ShloMosaic.TcCoe Idealize.SL.Sem
open Idealize.ShloMosaic.Pipeline (Dat)
open Cert.KernelIdeal Cert.KernelIdeal.Gen Cert.Attn

variable (m : (ℓ : Loc nD τ sig) → Buf (Elt Ideal) ℓ) (ρ : Dev nD → PrngReg)

/-! ## The flattened inputs as the region finds them -/

theorem entry_v0 (c : Dev nD) :
    (V m c main_v0 : S64x2048x64.Idx → EReal)
      = shapeCast S64x2048x64 (m ((c : Thread nD τ).loc main_arg0) : S4x16x2048x64.Idx → EReal) shapeCasts_S4x16x2048x64_S64x2048x64 := by
  show StableHlo.after hostOps0 (fun b => m (c, b)) (Proc.devRef .tc main_v0) = _
  after_results
  rfl

theorem entry_v1 (c : Dev nD) :
    (V m c main_v1 : S64x2048x64.Idx → EReal)
      = shapeCast S64x2048x64 (m ((c : Thread nD τ).loc main_arg1) : S4x16x2048x64.Idx → EReal) shapeCasts_S4x16x2048x64_S64x2048x64 := by
  show StableHlo.after hostOps0 (fun b => m (c, b)) (Proc.devRef .tc main_v1) = _
  after_results
  rfl

theorem entry_v2 (c : Dev nD) :
    (V m c main_v2 : S64x2048x64.Idx → EReal)
      = shapeCast S64x2048x64 (m ((c : Thread nD τ).loc main_arg2) : S4x16x2048x64.Idx → EReal) shapeCasts_S4x16x2048x64_S64x2048x64 := by
  show StableHlo.after hostOps0 (fun b => m (c, b)) (Proc.devRef .tc main_v2) = _
  after_results
  rfl

/-! ## The result after the line that follows the region -/

/-- The one line after the region unflattens the region's output array. -/
theorem tail_v4 (c : Dev nD) :
    (Pipeline.afterTail₀ cfgs (dats m) 0 (V0 m) [hostOps1] c main_v4 : S4x16x2048x64.Idx → EReal)
      = shapeCast S4x16x2048x64 ((dats m 0 c).arrAt 3 cfg0.N : S64x2048x64.Idx → EReal) shapeCasts_S64x2048x64_S4x16x2048x64 := by
  unfold Pipeline.afterTail₀
  show StableHlo.after hostOps1 _ (Proc.devRef .tc main_v4) = _
  after_results
  have e := Pipeline.withArrays_arr spec0 launch0.win.arr_inj c (V0 m c) (fun w => (dats m 0 c).arrAt w cfg0.N) 3
  exact funext fun i => congrFun (congrArg (fun X : S64x2048x64.Idx → EReal =>
    shapeCast S4x16x2048x64 X shapeCasts_S64x2048x64_S4x16x2048x64) e) i

/-- The program's result: `attn4` of the three float arguments as launched. -/
theorem result (c : Dev nD) :
    (Pipeline.afterTail₀ cfgs (dats m) 0 (V0 m) [hostOps1] c main_v4 : S4x16x2048x64.Idx → EReal)
      = attn4 eighth (m ((c : Thread nD τ).loc main_arg0)) (m ((c : Thread nD τ).loc main_arg1)) (m ((c : Thread nD τ).loc main_arg2)) := by
  rw [tail_v4, final, entry_v0, entry_v1, entry_v2]
  exact unflatten_attn3 eighth _ _ _ _ _

/-! ## The run -/

/-- Every weakly fair execution of the kernel program terminates with its result array at `attn4` of the arguments and
    the arguments unchanged. -/
theorem run : θ_run defs (onTc (τ := τ) (main (F := Ideal))) ⟨m, fun _ => 0, ρ⟩ fun r => ∀ c : Dev nD,
      r.2.mem ((c.tc : Thread nD τ).loc main_v4)
        = attn4 eighth (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Attn.Kernel

end
-- ==== Proof.lean ====
/-
  Scaled tanh attention: a tiled kernel against the plain einsum form, equal on the extended reals.

  Both programs compute, for every batch b, head h, query row q and feature d,
      out (b, h, q, d) = Σ_k tanh (α · s (b, h, q, k)) · V (b, h, k, d),   s (b, h, q, k) = (Σ_e Q (b, h, q, e) · K (b, h, k, e)) / 8,
  α the binary value of the literal 0.3 (one word, printed by both programs). The mask argument is read by neither.

  The kernel flattens (b, h) to one axis of 64 heads and, per head and block of 512 query rows, multiplies the query block by
  the transposed keys of the whole head, scales by the literal 1/8 and by α, takes tanh and multiplies by the head's
  values; the roundings to bf16 on the way into the two products are the identity on the extended reals, and each product into a
  zero accumulator is the plain sum over its contracted axis. The reference divides the scores by the literal 8; on the
  extended reals the quotient by a non-zero real is the product with its reciprocal at every value, the infinities
  included, so no finiteness of the inputs is used: the precondition is never opened.

  Modules: Spec (the function `row`, its two array forms `attn3` / `attn4`, the flattening law, the two scales are one),
  RefValue (the reference's result is `attn4`), Payload (what the kernel body stores, at an index, is `row`), KernelBlocks
  (what a grid point writes back is its block of `attn3`; the blocks tile the output), KernelRun (flatten, region,
  unflatten: the kernel program ends at `attn4`). Here: the three frames, the empty idealization ledger, and the two
  runs side by side.
-/
import proofs.«108790_j22342419874385_1_alg».proof.Defs
import proofs.«108790_j22342419874385_1_alg».proof.Proof.Gen.Kernel
import proofs.«108790_j22342419874385_1_alg».proof.Proof.Gen.Kernel.Skeleton
import proofs.«108790_j22342419874385_1_alg».proof.Proof.Gen.Kernel.Launch
import proofs.«108790_j22342419874385_1_alg».proof.Proof.Gen.Kernel.Points
import proofs.«108790_j22342419874385_1_alg».proof.Proof.Gen.Kernel.Frame
import proofs.«108790_j22342419874385_1_alg».proof.Proof.Gen.KernelIdeal
import proofs.«108790_j22342419874385_1_alg».proof.Proof.Gen.KernelIdeal.Skeleton
import proofs.«108790_j22342419874385_1_alg».proof.Proof.Gen.KernelIdeal.Launch
import proofs.«108790_j22342419874385_1_alg».proof.Proof.Gen.KernelIdeal.Points
import proofs.«108790_j22342419874385_1_alg».proof.Proof.Gen.KernelIdeal.Frame
import proofs.«108790_j22342419874385_1_alg».proof.Proof.Gen.ReferenceIdeal
import proofs.«108790_j22342419874385_1_alg».proof.Proof.Gen.Pre_finite_inputs
import proofs.«108790_j22342419874385_1_alg».proof.Proof.Gen.ReferenceIdeal.Run
import proofs.«108790_j22342419874385_1_alg».proof.Proof.Gen.ReferenceIdeal.Read
import proofs.«108790_j22342419874385_1_alg».proof.Proof.RefValue
import proofs.«108790_j22342419874385_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference is a sequence of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- From memories agreeing on the arguments both programs end with their result at `attn4`, scale 1/8, of the three float
    arguments: the kernel program by its run read block by block, the reference by its stages read index by index. -/
theorem algebraic : Cert.algebraic_KernelIdeal_ReferenceIdeal := by
  intro m ρ m' ρ' _ hagree
  refine ⟨fun c => Cert.Attn.attn4 Cert.Attn.Kernel.eighth
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Attn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.Attn.Ref.result_eq, (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
